-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x64 : Shape := ⟨3, ![8, 8192, 64]⟩
abbrev S8x1024x64 : Shape := ⟨3, ![8, 1024, 64]⟩
abbrev S64x64 : Shape := ⟨2, ![64, 64]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel
  bcast_S_S8x1024x64 : S_.BroadcastsInDim S8x1024x64 (![] : Fin 0 → Fin S8x1024x64.rank)
  reducesTo_S8x1024x64_S_d0_1_2 : S8x1024x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S8x8192x64 .f32) (main_arg1 : FVec F S8x1024x64 .f32) (main_arg2 : FVec F S64x64 .f32) (main_arg3 : FVec F S64x64 .f32) (main_arg4 : FVec F S64x64 .f32) : IVec S_ 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  let main_v4 : FVec F S8x1024x64 .f32 := Host.absf main_arg1
  let main_cst_0 : FVec F S_ .f32 := constant S_ .f32 0x7F800000#32
  let main_v5 : FVec F S8x1024x64 .f32 := broadcastInDim S8x1024x64 ![] bcast_S_S8x1024x64 main_cst_0
  let main_v6 : IVec S8x1024x64 1 := cmpf .olt main_v4 main_v5
  let main_c_1 : IVec S_ 1 := constantI S_ 1 1#1
  let main_v7 : IVec S_ 1 := (fun x v => Host.reduce IntOp.andi x v reducesTo_S8x1024x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8x8192x64 : Shape := ⟨3, ![8, 8192, 64]⟩
abbrev S8x1024x64 : Shape := ⟨3, ![8, 1024, 64]⟩
abbrev S64x64 : Shape := ⟨2, ![64, 64]⟩
abbrev S1x2048x64 : Shape := ⟨3, ![1, 2048, 64]⟩
abbrev S1x1024x64 : Shape := ⟨3, ![1, 1024, 64]⟩
abbrev S1024x64 : Shape := ⟨2, ![1024, 64]⟩
abbrev S2048x64 : Shape := ⟨2, ![2048, 64]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 7
  | .vmem => 9
  | .smem => 0
  | _ => 0

abbrev bufTy : (tb : Table) → Fin (tcTables nBuf tb) → BufTy
  | .hbm, ⟨0, _⟩ => ⟨S8x8192x64, .f32⟩
  | .hbm, ⟨1, _⟩ => ⟨S8x1024x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S8x8192x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1024x64, .f32⟩
  | .local _ .vmem, ⟨3, _⟩ => ⟨S1x1024x64, .f32⟩
  | .local _ .vmem, ⟨4, _⟩ => ⟨S64x64, .f32⟩
  | .local _ .vmem, ⟨5, _⟩ => ⟨S64x64, .f32⟩
  | .local _ .vmem, ⟨6, _⟩ => ⟨S1x2048x64, .f32⟩
  | .local _ .vmem, ⟨7, _⟩ => ⟨S1x2048x64, .f32⟩
  | .local _ .vmem, ⟨8, _⟩ => ⟨S1024x64, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S64x64_S64x64 : S64x64.ShapeCasts S64x64
  reduces_S2048x1024_S2048 : S2048x1024.Reduces [1] S2048
  shapeCasts_S2048_S2048x1 : S2048.ShapeCasts S2048x1
  broadcasts_S2048x1_S2048x1024 : S2048x1.Broadcasts S2048x1024
  shapeCasts_S2048x64_S1x2048x64 : S2048x64.ShapeCasts S1x2048x64
  dot_S64x64_S64x64_S64x64_1_1_0_0_n_n_wf : DotDims.WF S64x64 S64x64 S64x64 [1] [1] [0] [0] [] []
  dot_S1024x64_S64x64_S1024x64_1_0_0_1_n_n_wf : DotDims.WF S1024x64 S64x64 S1024x64 [1] [0] [0] [1] [] []
  dot_S2048x64_S64x64_S2048x64_1_0_0_1_n_n_wf : DotDims.WF S2048x64 S64x64 S2048x64 [1] [0] [0] [1] [] []
  dot_S2048x64_S1024x64_S2048x1024_1_1_0_0_n_n_wf : DotDims.WF S2048x64 S1024x64 S2048x1024 [1] [1] [0] [0] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x8192x64.size a
  hwx0_0 : ∀ i : grid0.Coords, EltTy.bits .f32 = 32 ∨ (Rect.block (s := S8x8192x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x1024x64.size a
  hwx0_1 : ∀ i : grid0.Coords, EltTy.bits .f32 = 32 ∨ (Rect.block (s := S8x1024x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S8x8192x64.size a
  hwx0_4 : ∀ i : grid0.Coords, EltTy.bits .f32 = 32 ∨ (Rect.block (s := S8x8192x64) S1x2048x64.size (cc0_transform_4 i) (hinb0_4 i)).WholeWords (EltTy.packing .f32)

variable [Facts₀]

def dot_S64x64_S64x64_S64x64_1_1_0_0_n_n : DotDims S64x64 S64x64 S64x64 where
  lhsContracting := [1]
  rhsContracting := [1]
  lhsNonContracting := [0]
  rhsNonContracting := [0]
  lhsBatch := []
  rhsBatch := []
  wf := dot_S64x64_S64x64_S64x64_1_1_0_0_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x64 : Shape := ⟨3, ![8, 8192, 64]⟩
abbrev S8x1024x64 : Shape := ⟨3, ![8, 1024, 64]⟩
abbrev S64x64 : Shape := ⟨2, ![64, 64]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S8x1024x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S8x8192x64, .f32⟩
  | .hbm, ⟨6, _⟩ => ⟨S8x1024x64, .f32⟩
  | .hbm, ⟨7, _⟩ => ⟨S8x1024x64, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S_, .f32⟩
  | .hbm, ⟨12, _⟩ => ⟨S8x8192, .f32⟩
  | .hbm, ⟨13, _⟩ => ⟨S8x8192, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S8x8192x64, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S8x8192x1024_S8x8192_d2 : S8x8192x1024.ReducesTo [2] S8x8192
  h_S_ : 0 < S_.numel
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  bcast_S8x8192x1_S8x8192x1024_0_1_2 : S8x8192x1.BroadcastsInDim S8x8192x1024 (![0, 1, 2] : Fin 3 → Fin S8x8192x1024.rank)
  dot_S8x8192x64_S64x64_S8x8192x64_2_0_01_1_n_n_wf : DotDims.WF S8x8192x64 S64x64 S8x8192x64 [2] [0] [0, 1] [1] [] []
  dot_S8x1024x64_S64x64_S8x1024x64_2_0_01_1_n_n_wf : DotDims.WF S8x1024x64 S64x64 S8x1024x64 [2] [0] [0, 1] [1] [] []
  dot_S8x8192x64_S8x1024x64_S8x8192x1024_2_2_1_1_0_0_wf : DotDims.WF S8x8192x64 S8x1024x64 S8x8192x1024 [2] [2] [1] [1] [0] [0]
  dot_S8x8192x1024_S8x1024x64_S8x8192x64_2_1_1_2_0_0_wf : DotDims.WF S8x8192x1024 S8x1024x64 S8x8192x64 [2] [1] [1] [2] [0] [0]

variable [Facts₀]

def dot_S8x8192x64_S64x64_S8x8192x64_2_0_01_1_n_n : DotDims S8x8192x64 S64x64 S8x8192x64 where
  lhsContracting := [2]
  rhsContracting := [0]
  lhsNonContracting := [0, 1]
  rhsNonContracting := [1]
  lhsBatch := []
  rhsBatch := []
  wf := dot_S8x8192x64_S64x64_S8x8192x64_2_0_01_1_n_n_wf
def dot_S8x1024x64_S64x64_S8x1024x64_2_0_01_1_n_n : DotDims S8x1024x64 S64x64 S8x1024x64 where
  lhsContracting := [2]
  rhsContracting := [0]
  lhsNonContracting := [0, 1]
  rhsNonContracting := [1]
  lhsBatch := []
  rhsBatch := []
  wf := dot_S8x1024x64_S64x64_S8x1024x64_2_0_01_1_n_n_wf
def dot_S8x8192x64_S8x1024x64_S8x8192x1024_2_2_1_1_0_0 : DotDims S8x8192x64 S8x1024x64 S8x8192x1024 where
  lhsContracting := [2]
  rhsContracting := [2]
  lhsNonContracting := [1]
  rhsNonContracting := [1]
  lhsBatch := [0]
  rhsBatch := [0]
  wf := dot_S8x8192x64_S8x1024x64_S8x8192x1024_2_2_1_1_0_0_wf
def dot_S8x8192x1024_S8x1024x64_S8x8192x64_2_1_1_2_0_0 : DotDims S8x8192x1024 S8x1024x64 S8x8192x64 where
  lhsContracting := [2]
  rhsContracting := [1]
  lhsNonContracting := [1]
  rhsNonContracting := [2]
  lhsBatch := [0]
  rhsBatch := [0]
  wf := dot_S8x8192x1024_S8x1024x64_S8x8192x64_2_1_1_2_0_0_wf

class Facts : Prop extends Facts₀ where

variable [Facts]
-- ==== Proof.KPieces.lean ====
/- What each control case of the kernel body leaves behind, as values.
   At the first query tile of a batch (case A) the body stores v = kv_block · Wv into the carried scratch and then the
   attention output computed from that v; at the other tiles (case B) it leaves the scratch alone and computes the
   output from what the scratch holds. -/
import proofs.«113969_j62139586839038_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AttnValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves v = kv_block · Wv in the scratch. -/
theorem sout_A (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x2048x64 .f32) (harg6 : arg6.IsWhole) (arg7 : Memref sig .tc .vmem S1024x64 .f32) (harg7 : arg7.IsWhole) (hc0 : cond0_0 i)
    (x0 : Vec F S1x2048x64 .f32) (x1 : Vec F S1x1024x64 .f32) (x2 : Vec F S64x64 .f32) (x3 : Vec F S64x64 .f32) :
    sout0_A_0 c i arg2 harg2 arg3 harg3 arg4 harg4 arg5 harg5 arg6 harg6 arg7 harg7 hc0 x0 x1 x2 x3 = k0_pay1 x1 x3 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg3.read_unread, harg5.read_unread, View.ld_unit_zero (S := S1x1024x64) hz3,
    View.ld_unit_zero (S := S64x64) hz2]

/-- Case A leaves, in the output block, the attention output computed from the v it has just stored. -/
theorem out_A (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x2048x64 .f32) (harg6 : arg6.IsWhole) (arg7 : Memref sig .tc .vmem S1024x64 .f32) (harg7 : arg7.IsWhole) (hc0 : cond0_0 i)
    (x0 : Vec F S1x2048x64 .f32) (x1 : Vec F S1x1024x64 .f32) (x2 : Vec F S64x64 .f32) (x3 : Vec F S64x64 .f32) :
    out0_A_4 c i arg2 harg2 arg3 harg3 arg4 harg4 arg5 harg5 arg6 harg6 arg7 harg7 hc0 x0 x1 x2 x3 = k0_pay2 x0 x1 x2 (k0_pay1 x1 x3) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S1x2048x64) hz3, View.readCov_unit_zero (S := S1024x64) _ hz2]
  simp only [View.readAt_eq_ld, harg2.read_unread, harg3.read_unread, harg4.read_unread, harg5.read_unread,
    View.ld_unit_zero (S := S1x2048x64) hz3, View.ld_unit_zero (S := S1x1024x64) hz3, View.ld_unit_zero (S := S64x64) hz2]

/-- Case B leaves, in the output block, the attention output computed from the v the scratch holds. -/
theorem out_B (c : Dev nD) (i : grid0.Coords) (arg2 : Memref sig .tc .vmem S1x2048x64 .f32) (harg2 : arg2.IsWhole) (arg3 : Memref sig .tc .vmem S1x1024x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x2048x64 .f32) (harg6 : arg6.IsWhole) (arg7 : Memref sig .tc .vmem S1024x64 .f32) (harg7 : arg7.IsWhole) (hc0 : ¬cond0_0 i)
    (x0 : Vec F S1x2048x64 .f32) (x1 : Vec F S1x1024x64 .f32) (x2 : Vec F S64x64 .f32) (x3 : Vec F S64x64 .f32) (xs0 : Vec F S1024x64 .f32) :
    out0_B_4 c i arg2 harg2 arg3 harg3 arg4 harg4 arg5 harg5 arg6 harg6 arg7 harg7 hc0 x0 x1 x2 x3 xs0 = k0_pay2 x0 x1 x2 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S1x2048x64) hz3]
  simp only [View.readAt_eq_ld, harg2.read_unread, harg3.read_unread, harg4.read_unread, harg7.read_unread,
    View.ld_unit_zero (S := S1x2048x64) hz3, View.ld_unit_zero (S := S1x1024x64) hz3, View.ld_unit_zero (S := S64x64) hz2,
    View.ld_unit_zero (S := S1024x64) hz2]

end Cert.KernelIdeal.AttnValue

end
-- ==== Proof.AttnSpec.lean ====
/- The specification of the attention layer, over the extended reals and index by index.
   Per batch b: q = x·Wq, k = kv·Wk, v = kv·Wv, scores = q·kᵀ, a softmax over the keys of each score row,
   and the product with v.  The scores are written in two groupings of one triple sum:
   Σ_f (Σ_d x·Wq)(Σ_e kv·Wk)   and   Σ_e (Σ_d x·(Σ_f Wq·Wk))·kv. -/
import Idealize.ShloMosaic.PureOps.Ideal
import Idealize.ShloMosaic.Lib.ValueIdx

noncomputable section

open scoped BigOperators

namespace Cert.Attn

open Idealize.ShloMosaic Idealize.ShloMosaic.ValueIdx

/-- The shapes of the five argument arrays and of the result. -/
abbrev SX : Shape := ⟨3, ![8, 8192, 64]⟩
abbrev SKV : Shape := ⟨3, ![8, 1024, 64]⟩
abbrev SW : Shape := ⟨2, ![64, 64]⟩

/-- The value the row maximum starts from: the f32 word of -∞, never evaluated. -/
abbrev negInf : EReal := Ideal.ofBits .f32 0xFF800000#32

/-- The maximum of one row of scores. -/
def rowMax (s : Fin 1024 → EReal) : EReal := (Finset.univ : Finset (Fin 1024)).fold max negInf s

/-- One row of scores `s` against one column `v` of the values: Σ_k softmax(s)_k · v_k, with
    softmax(s)_k = exp(s_k − max s) / Σ_k' exp(s_k' − max s). -/
def rowOut (s v : Fin 1024 → EReal) : EReal :=
  ∑ k : Fin 1024, Ideal.div (Ideal.exp (s k - rowMax s)) (∑ k' : Fin 1024, Ideal.exp (s k' - rowMax s)) * v k

/-- Row (b, r) of a batched [8, n, 64] array times a 64 × 64 matrix, at column f: Σ_d a[b,r,d]·w[d,f]. -/
def proj {n : Nat} (a : (⟨3, ![8, n, 64]⟩ : Shape).Idx → EReal) (w : SW.Idx → EReal) (b : Fin 8) (r : Fin n) (f : Fin 64) : EReal :=
  ∑ d : Fin 64, a (ix3 b r d) * w (ix2 d f)

/-- The reference's score: q[b,q,:] · k[b,k,:]. -/
def scoreR (x : SX.Idx → EReal) (kv : SKV.Idx → EReal) (wq wk : SW.Idx → EReal) (b : Fin 8) (q : Fin 8192) (k : Fin 1024) : EReal :=
  ∑ f : Fin 64, proj x wq b q f * proj kv wk b k f

/-- The folded weight Wq·Wkᵀ at (d, e). -/
def wqk (wq wk : SW.Idx → EReal) (d e : Fin 64) : EReal := ∑ f : Fin 64, wq (ix2 d f) * wk (ix2 e f)

/-- The kernel's score: (x[b,q,:]·Wqk) · kv[b,k,:]. -/
def scoreK (x : SX.Idx → EReal) (kv : SKV.Idx → EReal) (wq wk : SW.Idx → EReal) (b : Fin 8) (q : Fin 8192) (k : Fin 1024) : EReal :=
  ∑ e : Fin 64, (∑ d : Fin 64, x (ix3 b q d) * wqk wq wk d e) * kv (ix3 b k e)

/-- The layer's result with the reference's grouping of the scores. -/
def G (x : SX.Idx → EReal) (kv : SKV.Idx → EReal) (wq wk wv : SW.Idx → EReal) : SX.Idx → EReal :=
  fun i => rowOut (fun k => scoreR x kv wq wk (i 0) (i 1) k) (fun k => proj kv wv (i 0) k (i 2))

/-- The layer's result with the kernel's grouping of the scores. -/
def GK (x : SX.Idx → EReal) (kv : SKV.Idx → EReal) (wq wk wv : SW.Idx → EReal) : SX.Idx → EReal :=
  fun i => rowOut (fun k => scoreK x kv wq wk (i 0) (i 1) k) (fun k => proj kv wv (i 0) k (i 2))

end Cert.Attn

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.KPayload.lean ====
/-
  The kernel body's arithmetic read at an index, at the extended reals.

  The body stores two values. The first is the values block: row k of the kv block times Wv, at column e, the sum
  Σ_d kv[0,k,d] · Wv[d,e]. The second is the attention output block: with the scores of row q against key k written
  Σ_e' (Σ_d x[0,q,d] · W[d,e']) · kv[0,k,e'], it is, at (0, q, e), the softmax of row q's scores against column e of the
  stored values: Σ_k exp(s_k − max s) / (Σ_k' exp(s_k' − max s)) · v[k,e].

  Each non-pointwise operation is read at an index by one small statement over a variable operand: the scores product,
  which contracts the second axis of both operands; the row maximum and the row sum, which reduce the second axis; the
  numerator exp(s − max s); and the softmax's product with the values. The two payload statements assemble them.
-/
import proofs.«113969_j62139586839038_2_alg».proof.Proof.Gen.KernelIdeal.Skeleton
import proofs.«113969_j62139586839038_2_alg».proof.Proof.AttnSpec
import proofs.«113969_j62139586839038_2_alg».proof.Proof.LibMatmul
import proofs.«113969_j62139586839038_2_alg».proof.Proof.LibUnitAxis
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Attn
open Idealize.ShloMosaic Idealize.ShloMosaic.ValueIdx Cert.KernelIdeal

/-- the scratch's value: row k of the kv block times Wv, at column e -/
theorem pay1_apply (v25 : Vec Ideal S1x1024x64 .f32) (v27 : Vec Ideal S64x64 .f32) (k : Fin 1024) (e : Fin 64) :
    Gen.k0_pay1 (F := Ideal) v25 v27 (ix2 k e) = ∑ d : Fin 64, v25 (ix3 (0 : Fin 1) k d) * v27 (ix2 d e) := by
  unfold Gen.k0_pay1
  rw [shapeCast_self]
  refine (Cert.Bridge.LibMatmul.matmul_zero_apply (M := 1024) (K := 64) (N := 64) (some .fp32) _ v27 k e).trans ?_
  refine Finset.sum_congr rfl fun d _ => ?_
  rw [shapeCast_1ab_ab_apply]

/-- The scores product contracts the second axis of both operands: at (q, k) it is Σ_e L[q,e] · R[k,e]. -/
theorem scores_apply (L : FVec Ideal S2048x64 .f32) (R : FVec Ideal S1024x64 .f32) (q : Fin 2048) (k : Fin 1024) :
    matmul dot_S2048x64_S1024x64_S2048x1024_1_1_0_0_n_n (some .fp32) L R (constant (F := Ideal) S2048x1024 .f32 0x00000000#32) (ix2 q k)
      = ∑ e : Fin 64, L (ix2 q e) * R (ix2 k e) := by
  refine (Ideal.matmul_constant_zero_apply _ (some .fp32) L R (ix2 q k)).trans ?_
  rw [← Equiv.sum_comp (contrEquiv1 dot_S2048x64_S1024x64_S2048x1024_1_1_0_0_n_n 64 rfl rfl).symm]
  refine Finset.sum_congr rfl fun e _ => ?_
  have he := contrEquiv1_symm_val dot_S2048x64_S1024x64_S2048x1024_1_1_0_0_n_n 64 rfl rfl e
  have el : dot_S2048x64_S1024x64_S2048x1024_1_1_0_0_n_n.lhsIdx (ix2 q k)
      ((contrEquiv1 dot_S2048x64_S1024x64_S2048x1024_1_1_0_0_n_n 64 rfl rfl).symm e) = ix2 q e := by
    funext a
    refine Fin.ext ?_
    match a with
    | ⟨0, _⟩ => rfl
    | ⟨1, _⟩ =>
      exact (dot_S2048x64_S1024x64_S2048x1024_1_1_0_0_n_n.lhsIdx_val_of_single (cl := 1) rfl (ix2 q k) _).trans he
  have er : dot_S2048x64_S1024x64_S2048x1024_1_1_0_0_n_n.rhsIdx (ix2 q k)
      ((contrEquiv1 dot_S2048x64_S1024x64_S2048x1024_1_1_0_0_n_n 64 rfl rfl).symm e) = ix2 k e := by
    funext a
    refine Fin.ext ?_
    match a with
    | ⟨0, _⟩ => rfl
    | ⟨1, _⟩ =>
      exact (dot_S2048x64_S1024x64_S2048x1024_1_1_0_0_n_n.rhsIdx_val_of_single (cr := 1) rfl (ix2 q k) _).trans he
  rw [el, er]

/-- The inserted index of the row reduction at row q and position k is (q, k). -/
theorem lift_row (h : S2048x1024.Reduces [1] S2048) (q : Fin 2048) (k : Fin 1024) :
    h.lift (ix1 q) k = ix2 q k := by
  funext a
  refine Fin.ext ?_
  match a with
  | ⟨0, _⟩ => rfl
  | ⟨1, _⟩ => rfl

/-- The maximum over the keys of row q. -/
theorem rowmax_apply (src : FVec Ideal S2048x1024 .f32) (q : Fin 2048) :
    multiReduction .maximumf [1] S2048 src 0xFF800000#32 Gen.reduces_S2048x1024_S2048 (.inl rfl) rfl (ix1 q)
      = rowMax (fun k => src (ix2 q k)) := by
  refine (Ideal.multiReduction_maximumf_single src _ _ _ _ (ix1 q)).trans ?_
  unfold rowMax
  refine congrArg (fun f => (Finset.univ : Finset (Fin 1024)).fold max negInf f) ?_
  funext k
  exact congrArg src (lift_row _ q k)

/-- The sum over the keys of row q. -/
theorem rowsum_apply (src : FVec Ideal S2048x1024 .f32) (q : Fin 2048) :
    multiReduction .add [1] S2048 src 0x00000000#32 Gen.reduces_S2048x1024_S2048 (.inl rfl) rfl (ix1 q)
      = ∑ k : Fin 1024, src (ix2 q k) := by
  refine (Ideal.multiReduction_add_single src _ _ _ _ (ix1 q)).trans ?_
  refine Finset.sum_congr rfl fun k _ => ?_
  exact congrArg src (lift_row _ q k)

/-- A row of scores less its maximum, exponentiated: the softmax's numerator at (q, k). -/
theorem shifted_apply (S : FVec Ideal S2048x1024 .f32) (q : Fin 2048) (k : Fin 1024) :
    exp (subf S (broadcastTo S2048x1024
        (shapeCast S2048x1
          (multiReduction .maximumf [1] S2048 S 0xFF800000#32 Gen.reduces_S2048x1024_S2048 (.inl rfl) rfl)
          Gen.shapeCasts_S2048_S2048x1)
        Gen.broadcasts_S2048x1_S2048x1024)) (ix2 q k)
      = Ideal.exp (S (ix2 q k) - rowMax (fun k' => S (ix2 q k'))) := by
  show Ideal.exp (S (ix2 q k) - broadcastTo S2048x1024 _ Gen.broadcasts_S2048x1_S2048x1024 (ix2 q k)) = _
  rw [Cert.Lib.UnitAxis.broadcastTo_a1_ab_apply, Cert.Lib.UnitAxis.shapeCast_a_a1_apply, rowmax_apply]

/-- The softmax of the scores S times the values V, at (q, e). -/
theorem softmax_matmul_apply (S : FVec Ideal S2048x1024 .f32) (V : FVec Ideal S1024x64 .f32) (q : Fin 2048) (e : Fin 64) :
    matmul dot_S2048x1024_S1024x64_S2048x64_1_0_0_1_n_n (some .fp32)
      (divf
        (exp (subf S (broadcastTo S2048x1024
          (shapeCast S2048x1
            (multiReduction .maximumf [1] S2048 S 0xFF800000#32 Gen.reduces_S2048x1024_S2048 (.inl rfl) rfl)
            Gen.shapeCasts_S2048_S2048x1)
          Gen.broadcasts_S2048x1_S2048x1024)))
        (broadcastTo S2048x1024
          (shapeCast S2048x1
            (multiReduction .add [1] S2048
              (exp (subf S (broadcastTo S2048x1024
                (shapeCast S2048x1
                  (multiReduction .maximumf [1] S2048 S 0xFF800000#32 Gen.reduces_S2048x1024_S2048 (.inl rfl) rfl)
                  Gen.shapeCasts_S2048_S2048x1)
                Gen.broadcasts_S2048x1_S2048x1024)))
              0x00000000#32 Gen.reduces_S2048x1024_S2048 (.inl rfl) rfl)
            Gen.shapeCasts_S2048_S2048x1)
          Gen.broadcasts_S2048x1_S2048x1024))
      V (constant (F := Ideal) S2048x64 .f32 0x00000000#32) (ix2 q e)
      = rowOut (fun k => S (ix2 q k)) (fun k => V (ix2 k e)) := by
  refine (Cert.Bridge.LibMatmul.matmul_zero_apply (M := 2048) (K := 1024) (N := 64) (some .fp32) _ V q e).trans ?_
  unfold rowOut
  refine Finset.sum_congr rfl fun k _ => ?_
  refine congrArg (· * V (ix2 k e)) ?_
  rw [divf_apply, shifted_apply, Cert.Lib.UnitAxis.broadcastTo_a1_ab_apply, Cert.Lib.UnitAxis.shapeCast_a_a1_apply, rowsum_apply]
  refine congrArg (Ideal.div _) ?_
  exact Finset.sum_congr rfl fun k' _ => shifted_apply S q k'

/-- the output block at (0, q, e): the softmax of row q's scores against column e of the values held in the scratch -/
theorem pay2_apply (v3 : Vec Ideal S1x2048x64 .f32) (v5 : Vec Ideal S1x1024x64 .f32) (v7 : Vec Ideal S64x64 .f32)
    (v20 : Vec Ideal S1024x64 .f32) (q : Fin 2048) (e : Fin 64) :
    Gen.k0_pay2 (F := Ideal) v3 v5 v7 v20 (ix3 (0 : Fin 1) q e)
      = rowOut (fun k => ∑ e' : Fin 64, (∑ d : Fin 64, v3 (ix3 (0 : Fin 1) q d) * v7 (ix2 d e')) * v5 (ix3 (0 : Fin 1) k e'))
          (fun k => v20 (ix2 k e)) := by
  unfold Gen.k0_pay2
  rw [shapeCast_ab_1ab_apply]
  refine (softmax_matmul_apply _ v20 q e).trans ?_
  refine congrArg (fun s => rowOut s (fun k => v20 (ix2 k e))) ?_
  funext k
  refine (scores_apply _ _ q k).trans ?_
  refine Finset.sum_congr rfl fun e' _ => ?_
  rw [shapeCast_1ab_ab_apply]
  refine congrArg (· * v5 (ix3 (0 : Fin 1) k e')) ?_
  refine (Cert.Bridge.LibMatmul.matmul_zero_apply (M := 2048) (K := 64) (N := 64) (some .fp32) _ _ q e').trans ?_
  refine Finset.sum_congr rfl fun d _ => ?_
  rw [shapeCast_1ab_ab_apply, shapeCast_self]

end Cert.Attn
end
-- ==== Proof.KBridge.lean ====
/-
  From the kernel body's two stored values, read at an index, to the specification.

  The blocks the body reads are variables here, related to the whole arrays by hypotheses: the x block's row q is row Q
  of batch b of x, the kv block is batch b of kv, the weight blocks are Wv and the folded weight Wq·Wkᵀ, and the scratch
  holds a column of kv·Wv. Under them the first stored value at (k, e) is Σ_d kv[b,k,d] · Wv[d,e], and the second at
  (0, q, e) is the layer's result at (b, Q, e) with the scores grouped as Σ_e' (Σ_d x[b,Q,d] · (Wq·Wkᵀ)[d,e']) · kv[b,k,e']:
  both sides are the same sums, term by term.
-/
import proofs.«113969_j62139586839038_2_alg».proof.Proof.KPayload
import proofs.«113969_j62139586839038_2_alg».proof.Proof.AttnSpec

noncomputable section

open scoped BigOperators

namespace Cert.Attn
open Idealize.ShloMosaic Idealize.ShloMosaic.ValueIdx Cert.KernelIdeal

/-- the scratch's value at (k, e) is the projection of batch b of kv by Wv, when the kv block is batch b and the weight block is Wv -/
theorem pay1_is_proj (x1 : Vec Ideal S1x1024x64 .f32) (x3 : Vec Ideal S64x64 .f32) (KV : SKV.Idx → EReal) (WV : SW.Idx → EReal) (b : Fin 8)
    (k : Fin 1024) (e : Fin 64)
    (h1 : ∀ d : Fin 64, x1 (ix3 (0 : Fin 1) k d) = KV (ix3 b k d))
    (h3 : ∀ d : Fin 64, x3 (ix2 d e) = WV (ix2 d e)) :
    Gen.k0_pay1 (F := Ideal) x1 x3 (ix2 k e) = proj KV WV b k e := by
  refine (pay1_apply x1 x3 k e).trans ?_
  unfold proj
  refine Finset.sum_congr rfl fun d _ => ?_
  rw [h1 d, h3 d]

/-- the output block at (0, q, e) is the specification (kernel grouping) at (b, Q, e), when the x block's row q is row Q of batch b of x, the kv block is batch b of kv, the weight block is the folded weight, and the scratch holds column e of the projection of kv by Wv -/
theorem pay2_is_GK (x0 : Vec Ideal S1x2048x64 .f32) (x1 : Vec Ideal S1x1024x64 .f32) (x2 : Vec Ideal S64x64 .f32) (v20 : Vec Ideal S1024x64 .f32)
    (X : SX.Idx → EReal) (KV : SKV.Idx → EReal) (WQ WK WV : SW.Idx → EReal) (b : Fin 8) (q : Fin 2048) (Q : Fin 8192) (e : Fin 64)
    (h0 : ∀ d : Fin 64, x0 (ix3 (0 : Fin 1) q d) = X (ix3 b Q d))
    (h1 : ∀ (k : Fin 1024) (d : Fin 64), x1 (ix3 (0 : Fin 1) k d) = KV (ix3 b k d))
    (h2 : ∀ d e' : Fin 64, x2 (ix2 d e') = wqk WQ WK d e')
    (h20 : ∀ k : Fin 1024, v20 (ix2 k e) = proj KV WV b k e) :
    Gen.k0_pay2 (F := Ideal) x0 x1 x2 v20 (ix3 (0 : Fin 1) q e) = GK X KV WQ WK WV (ix3 b Q e) := by
  refine (pay2_apply x0 x1 x2 v20 q e).trans ?_
  show _ = rowOut (fun k => scoreK X KV WQ WK b Q k) (fun k => proj KV WV b k e)
  -- the scores row: the block's entries are the arrays' entries, term by term
  have hs : (fun k : Fin 1024 => ∑ e' : Fin 64, (∑ d : Fin 64, x0 (ix3 (0 : Fin 1) q d) * x2 (ix2 d e')) * x1 (ix3 (0 : Fin 1) k e'))
      = fun k => scoreK X KV WQ WK b Q k := by
    funext k
    unfold scoreK
    refine Finset.sum_congr rfl fun e' _ => ?_
    rw [h1 k e']
    refine congrArg (· * KV (ix3 b k e')) ?_
    exact Finset.sum_congr rfl fun d _ => by rw [h0 d, h2 d e']
  -- the values column: what the scratch holds
  have hv : (fun k : Fin 1024 => v20 (ix2 k e)) = fun k => proj KV WV b k e := funext h20
  rw [hs, hv]

end Cert.Attn

end
-- ==== Proof.KWqk.lean ====
/- The folded weight of the kernel program, read at an index: the contraction of the second axes of
   Wq and Wk is the sum Σ_f Wq[d,f]·Wk[e,f]. -/
import proofs.«113969_j62139586839038_2_alg».proof.KernelIdeal
import proofs.«113969_j62139586839038_2_alg».proof.Proof.Gen.KernelIdeal
import proofs.«113969_j62139586839038_2_alg».proof.Proof.AttnSpec
import Idealize.ShloMosaic.PureOps.Ideal.Laws
import Idealize.ShloMosaic.Lib.ValueIdx

noncomputable section

open scoped BigOperators

namespace Cert.Attn

open Idealize.ShloMosaic Idealize.ShloMosaic.ValueIdx Cert.KernelIdeal

/-- The left operand's index at output index i and contraction index q: its non-contracted axis 0 is i's axis 0. -/
theorem wqk_lhs_0 [Cert.KernelIdeal.Facts₀] (i : S64x64.Idx) (q : dot_S64x64_S64x64_S64x64_1_1_0_0_n_n.contr.Idx) :
    (dot_S64x64_S64x64_S64x64_1_1_0_0_n_n.lhsIdx i q 0).val = (i 0).val := by
  unfold DotDims.lhsIdx
  rw [dif_neg (show ¬(0 : Fin S64x64.rank) ∈ dot_S64x64_S64x64_S64x64_1_1_0_0_n_n.lhsBatch by
        show ¬(0 : Fin S64x64.rank) ∈ ([] : List (Fin S64x64.rank)); decide),
      dif_pos (show (0 : Fin S64x64.rank) ∈ dot_S64x64_S64x64_S64x64_1_1_0_0_n_n.lhsNonContracting by
        show (0 : Fin S64x64.rank) ∈ ([0] : List (Fin S64x64.rank)); decide)]
  rfl

/-- The right operand's index at output index i and contraction index q: its non-contracted axis 0 is i's axis 1. -/
theorem wqk_rhs_0 [Cert.KernelIdeal.Facts₀] (i : S64x64.Idx) (q : dot_S64x64_S64x64_S64x64_1_1_0_0_n_n.contr.Idx) :
    (dot_S64x64_S64x64_S64x64_1_1_0_0_n_n.rhsIdx i q 0).val = (i 1).val := by
  unfold DotDims.rhsIdx
  rw [dif_neg (show ¬(0 : Fin S64x64.rank) ∈ dot_S64x64_S64x64_S64x64_1_1_0_0_n_n.rhsBatch by
        show ¬(0 : Fin S64x64.rank) ∈ ([] : List (Fin S64x64.rank)); decide),
      dif_pos (show (0 : Fin S64x64.rank) ∈ dot_S64x64_S64x64_S64x64_1_1_0_0_n_n.rhsNonContracting by
        show (0 : Fin S64x64.rank) ∈ ([0] : List (Fin S64x64.rank)); decide)]
  rfl

/-- the folded weight at (d, e): Σ_f Wq[d,f]·Wk[e,f] -/
theorem hostWqk_apply [Cert.KernelIdeal.Facts₀] (wq wk : FVec Ideal S64x64 .f32) (d e : Fin 64) :
    Host.dotGeneral (F := Ideal) dot_S64x64_S64x64_S64x64_1_1_0_0_n_n (some .fp32) wq wk (ix2 d e) = wqk wq wk d e := by
  unfold wqk
  simp only [Host.dotGeneral]
  rw [Ideal.dotGeneral_apply, ← Equiv.sum_comp (ValueIdx.contrEquiv1 dot_S64x64_S64x64_S64x64_1_1_0_0_n_n 64 rfl rfl).symm]
  refine Finset.sum_congr rfl fun k _ => ?_
  have hk := ValueIdx.contrEquiv1_symm_val dot_S64x64_S64x64_S64x64_1_1_0_0_n_n 64 rfl rfl k
  -- on the contracted axis 1 both operand indices are the contraction index
  have el : dot_S64x64_S64x64_S64x64_1_1_0_0_n_n.lhsIdx (ix2 d e) ((ValueIdx.contrEquiv1 dot_S64x64_S64x64_S64x64_1_1_0_0_n_n 64 rfl rfl).symm k) = ix2 d k := funext fun a => Fin.ext (by
    match a with
    | ⟨0, _⟩ => exact wqk_lhs_0 _ _
    | ⟨1, _⟩ => exact (dot_S64x64_S64x64_S64x64_1_1_0_0_n_n.lhsIdx_val_of_single rfl _ _).trans hk)
  have er : dot_S64x64_S64x64_S64x64_1_1_0_0_n_n.rhsIdx (ix2 d e) ((ValueIdx.contrEquiv1 dot_S64x64_S64x64_S64x64_1_1_0_0_n_n 64 rfl rfl).symm k) = ix2 e k := funext fun a => Fin.ext (by
    match a with
    | ⟨0, _⟩ => exact wqk_rhs_0 _ _
    | ⟨1, _⟩ => exact (dot_S64x64_S64x64_S64x64_1_1_0_0_n_n.rhsIdx_val_of_single rfl _ _).trans hk)
  rw [el, er]

end Cert.Attn

end
-- ==== Proof.KCover.lean ====
/- The output window's blocks cover the result array.  The grid is 8 × 4, point t = 4·b + q; the window's index map
   sends point t to block (t / 4, t % 4, 0) of extents [1, 2048, 64] in the [8, 8192, 64] array, so the index
   (i₀, i₁, i₂) lies in the block of the point 4·i₀ + i₁ / 2048. -/
import proofs.«113969_j62139586839038_2_alg».proof.Proof.Gen.KernelIdeal.Points
import proofs.«113969_j62139586839038_2_alg».proof.Proof.Gen.KernelIdeal.Launch
import Idealize.ShloMosaic.Lib.Pipeline.Value

noncomputable section

namespace Cert.KernelIdeal.AttnValue

open Idealize.ShloMosaic Cert.KernelIdeal Cert.KernelIdeal.Gen

/-- The output window's index map over the grid: block (t / 4, t % 4, 0) at point t. -/
theorem idx_facts4 : ∀ t : Fin cfg0.N, win0_4.index t (0 : Fin 3) = t.val / 4 ∧ win0_4.index t (1 : Fin 3) = t.val % 4
    ∧ win0_4.index t (2 : Fin 3) = 0 :=
  (by decide +kernel : ∀ t : Fin grid0.N, _)

/-- An index of the array is in point t's block iff each coordinate is in the block's range on its axis. -/
theorem mem_blk4 (t : Fin cfg0.N) (i : S8x8192x64.Idx) :
    i ∈ ((cfg0.win 4).blk t).view.set ↔ ∀ a : Fin 3, win0_4.index t a * S1x2048x64.size a ≤ (i a).val ∧ (i a).val < win0_4.index t a * S1x2048x64.size a + S1x2048x64.size a := by
  show i ∈ ((View.whole main_v1).slice (win0_4.rect t)).set ↔ _
  rw [View.set_slice_whole, Rect.mem_set_unit]
  exact Iff.rfl

/-- Every index of the result array lies in the block of the point 4·i₀ + i₁ / 2048, which writes back. -/
theorem cover4 (i : S8x8192x64.Idx) : ∃ t : Fin cfg0.N, (cfg0.win 4).flush t = true ∧ i ∈ ((cfg0.win 4).blk t).view.set := by
  have hN : cfg0.N = 32 := N_0
  have hi0 : (i 0).val < 8 := (i 0).isLt
  have hi1 : (i 1).val < 8192 := (i 1).isLt
  have hi2 : (i 2).val < 64 := (i 2).isLt
  have hlt : 4 * (i 0).val + (i 1).val / 2048 < cfg0.N := by rw [hN]; omega
  obtain ⟨e0, e1, e2⟩ := idx_facts4 ⟨4 * (i 0).val + (i 1).val / 2048, hlt⟩
  have e0 : win0_4.index ⟨4 * (i 0).val + (i 1).val / 2048, hlt⟩ (0 : Fin 3) = (4 * (i 0).val + (i 1).val / 2048) / 4 := e0
  have e1 : win0_4.index ⟨4 * (i 0).val + (i 1).val / 2048, hlt⟩ (1 : Fin 3) = (4 * (i 0).val + (i 1).val / 2048) % 4 := e1
  refine ⟨⟨4 * (i 0).val + (i 1).val / 2048, hlt⟩, flush0_4 _, ?_⟩
  rw [mem_blk4]
  intro a
  match a with
  | ⟨0, _⟩ =>
    show win0_4.index ⟨4 * (i 0).val + (i 1).val / 2048, hlt⟩ (0 : Fin 3) * 1 ≤ (i 0).val
      ∧ (i 0).val < win0_4.index ⟨4 * (i 0).val + (i 1).val / 2048, hlt⟩ (0 : Fin 3) * 1 + 1
    omega
  | ⟨1, _⟩ =>
    show win0_4.index ⟨4 * (i 0).val + (i 1).val / 2048, hlt⟩ (1 : Fin 3) * 2048 ≤ (i 1).val
      ∧ (i 1).val < win0_4.index ⟨4 * (i 0).val + (i 1).val / 2048, hlt⟩ (1 : Fin 3) * 2048 + 2048
    omega
  | ⟨2, _⟩ =>
    show win0_4.index ⟨4 * (i 0).val + (i 1).val / 2048, hlt⟩ (2 : Fin 3) * 64 ≤ (i 2).val
      ∧ (i 2).val < win0_4.index ⟨4 * (i 0).val + (i 1).val / 2048, hlt⟩ (2 : Fin 3) * 64 + 64
    omega

end Cert.KernelIdeal.AttnValue

end
-- ==== Proof.KBlocks.lean ====
/- The kernel's result array, block by block.
   At grid point t = 4·b + qi the kernel reads x's block (b, qi), all of kv's batch b and the two 64 × 64 weights, and
   writes rows [2048·qi, 2048·(qi+1)) of batch b of the result. The scratch carries v = kv[b]·Wv from the first tile
   of a batch to its other three. -/
import proofs.«113969_j62139586839038_2_alg».proof.Proof.Gen.KernelIdeal.Value
import proofs.«113969_j62139586839038_2_alg».proof.Proof.KPieces
import proofs.«113969_j62139586839038_2_alg».proof.Proof.AttnSpec
import proofs.«113969_j62139586839038_2_alg».proof.Proof.KBridge
import proofs.«113969_j62139586839038_2_alg».proof.Proof.KWqk
import proofs.«113969_j62139586839038_2_alg».proof.Proof.KCover
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.Attn Idealize.ShloMosaic.ValueIdx

variable (m : (ℓ : Loc nD τ sig) → Buf (Elt Ideal) ℓ) (ρ : Dev nD → PrngReg)

/-- The printed index maps of the four input windows over the grid: x moves with (b, qi); kv with b; the weights stay. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- x's block at point t, at (0, q, d), is x[t / 4, 2048·(t % 4) + q, d]. -/
theorem iblk0_apply (c : Dev nD) (t : Fin cfg0.N) (q : Fin 2048) (d : Fin 64) (b : Fin 8) (Q : Fin 8192)
    (hb : b.val = t.val / 4) (hQ : Q.val = (t.val % 4) * 2048 + q.val) :
    (iblk m c 0 t : Vec Ideal S1x2048x64 .f32) (ix3 (0 : Fin 1) q d) = m ((c : Thread nD τ).loc main_arg0) (ix3 b Q d) := by
  unfold iblk
  rw [View.read_apply]
  show V m c main_arg0 _ = _
  rw [V_main_arg0]
  refine congrArg _ (funext fun a => Fin.ext ?_)
  obtain ⟨e0, e1, e2, -⟩ := idx_facts t
  match a with
  | ⟨0, _⟩ => show win0_0.index t (0 : Fin 3) * 1 + 1 * 0 = b.val; omega
  | ⟨1, _⟩ => show win0_0.index t (1 : Fin 3) * 2048 + 1 * q.val = Q.val; omega
  | ⟨2, _⟩ => show win0_0.index t (2 : Fin 3) * 64 + 1 * d.val = d.val; omega

/-- kv's block at point t, at (0, k, d), is kv[t / 4, k, d]. -/
theorem iblk1_apply (c : Dev nD) (t : Fin cfg0.N) (k : Fin 1024) (d : Fin 64) (b : Fin 8) (hb : b.val = t.val / 4) :
    (iblk m c 1 t : Vec Ideal S1x1024x64 .f32) (ix3 (0 : Fin 1) k d) = m ((c : Thread nD τ).loc main_arg1) (ix3 b k d) := by
  unfold iblk
  rw [View.read_apply]
  show V m c main_arg1 _ = _
  rw [V_main_arg1]
  refine congrArg _ (funext fun a => Fin.ext ?_)
  obtain ⟨-, -, -, e0, e1, e2, -⟩ := idx_facts t
  match a with
  | ⟨0, _⟩ => show win0_1.index t (0 : Fin 3) * 1 + 1 * 0 = b.val; omega
  | ⟨1, _⟩ => show win0_1.index t (1 : Fin 3) * 1024 + 1 * k.val = k.val; omega
  | ⟨2, _⟩ => show win0_1.index t (2 : Fin 3) * 64 + 1 * d.val = d.val; omega

/-- The folded weight's block is the whole array the host computed before the region. -/
theorem iblk2_apply (c : Dev nD) (t : Fin cfg0.N) (d e : Fin 64) :
    (iblk m c 2 t : Vec Ideal S64x64 .f32) (ix2 d e) = V m c main_v0 (ix2 d e) := by
  unfold iblk
  rw [View.read_apply]
  show V m c main_v0 _ = _
  refine congrArg _ (funext fun a => Fin.ext ?_)
  obtain ⟨-, -, -, -, -, -, e0, e1, -⟩ := idx_facts t
  match a with
  | ⟨0, _⟩ => show win0_2.index t (0 : Fin 2) * 64 + 1 * d.val = d.val; omega
  | ⟨1, _⟩ => show win0_2.index t (1 : Fin 2) * 64 + 1 * e.val = e.val; omega

/-- Wv's block is the whole array. -/
theorem iblk3_apply (c : Dev nD) (t : Fin cfg0.N) (d e : Fin 64) :
    (iblk m c 3 t : Vec Ideal S64x64 .f32) (ix2 d e) = m ((c : Thread nD τ).loc main_arg4) (ix2 d e) := by
  unfold iblk
  rw [View.read_apply]
  show V m c main_arg4 _ = _
  rw [V_main_arg4]
  refine congrArg _ (funext fun a => Fin.ext ?_)
  obtain ⟨-, -, -, -, -, -, -, -, e0, e1⟩ := idx_facts t
  match a with
  | ⟨0, _⟩ => show win0_3.index t (0 : Fin 2) * 64 + 1 * d.val = d.val; omega
  | ⟨1, _⟩ => show win0_3.index t (1 : Fin 2) * 64 + 1 * e.val = e.val; omega

/-- What the region finds in the folded weight's array: the host's product of Wq and Wk over their second axes. -/
theorem V_main_v0 (c : Dev nD) :
    (V m c main_v0 : S64x64.Idx → EReal)
      = Host.dotGeneral (F := Ideal) (φ₁ := .f32) (φ₂ := .f32) dot_S64x64_S64x64_S64x64_1_1_0_0_n_n (some .fp32)
          (m ((c : Thread nD τ).loc main_arg2) : FVec Ideal S64x64 .f32) (m ((c : Thread nD τ).loc main_arg3) : FVec Ideal S64x64 .f32) := by
  dsimp only [Gen.V, Gen.hostOps0]
  after_results

/-- The five argument arrays on core c, as functions on the extended reals. -/
abbrev aX (c : Dev nD) : SX.Idx → EReal := m ((c : Thread nD τ).loc main_arg0)
abbrev aKV (c : Dev nD) : SKV.Idx → EReal := m ((c : Thread nD τ).loc main_arg1)
abbrev aWQ (c : Dev nD) : SW.Idx → EReal := m ((c : Thread nD τ).loc main_arg2)
abbrev aWK (c : Dev nD) : SW.Idx → EReal := m ((c : Thread nD τ).loc main_arg3)
abbrev aWV (c : Dev nD) : SW.Idx → EReal := m ((c : Thread nD τ).loc main_arg4)

/-- What the scratch holds while batch b is processed: v = kv[b] · Wv. -/
def vOf (c : Dev nD) (b : Fin 8) : Vec Ideal S1024x64 .f32 :=
  fun j => proj (aKV m c) (aWV m c) b (j 0) (j 1)

/-- The value stored into the scratch at a first tile, from the blocks of point t, is v of batch t / 4. -/
theorem pay1_iblk (c : Dev nD) (t : Fin cfg0.N) (b : Fin 8) (hb : b.val = t.val / 4) :
    k0_pay1 (F := Ideal) (iblk m c 1 t) (iblk m c 3 t) = vOf m c b := by
  funext j
  obtain ⟨k, e, rfl⟩ : ∃ (k : Fin 1024) (e : Fin 64), j = ix2 k e := ⟨j 0, j 1, eq_ix2 j⟩
  exact pay1_is_proj (iblk m c 1 t) (iblk m c 3 t) (aKV m c) (aWV m c) b k e
    (fun d => iblk1_apply m c t k d b hb) (fun d => iblk3_apply m c t d e)

/-- THE CARRIED SCRATCH: after point n it holds v of batch n / 4 — stored at the batch's first tile, kept by the
    other three. By induction on the point. -/
theorem scratch_eq (c : Dev nD) : ∀ (n : ℕ) (h : n < cfg0.N) (b : Fin 8), b.val = n / 4 → (outsAt0 m c n h).2 = vOf m c b
  | 0, h, b, hb => by
    rw [outsAt0_A m c ⟨0, h⟩ rfl]
    dsimp only
    rw [sout_A]
    exact pay1_iblk m c ⟨0, h⟩ b hb
  | n + 1, h, b, hb => by
    by_cases h0 : (n + 1) % 4 = 0
    · rw [outsAt0_A m c ⟨n + 1, h⟩ h0]
      dsimp only
      rw [sout_A]
      exact pay1_iblk m c ⟨n + 1, h⟩ b hb
    · rw [outsAt0_B m c ⟨n + 1, h⟩ h0]
      dsimp only
      unfold sout0_B_0
      show (outsAt0 m c n _).2 = _
      exact scratch_eq c n _ b (by omega)

/-- What point t leaves in the output block: the attention output of x's block against kv's batch, with v of the batch. -/
theorem out_eq (c : Dev nD) (t : Fin cfg0.N) (b : Fin 8) (hb : b.val = t.val / 4) :
    (outsAt0 m c t.val t.isLt).1 = k0_pay2 (F := Ideal) (iblk m c 0 t) (iblk m c 1 t) (iblk m c 2 t) (vOf m c b) := by
  by_cases h0 : t.val % 4 = 0
  · rw [outsAt0_A m c t h0]
    dsimp only
    rw [out_A, pay1_iblk m c t b hb]
  · rw [outsAt0_B m c t h0]
    dsimp only
    rw [out_B, scratch_eq m c (t.val - 1) _ b (by omega)]

/-- The block point t writes back is block t of the specification (kernel grouping) of the argument arrays. -/
theorem block_eq (c : Dev nD) (t : Fin cfg0.N) (b : Fin 8) (hb : b.val = t.val / 4) (j : S1x2048x64.Idx) :
    k0_pay2 (F := Ideal) (iblk m c 0 t) (iblk m c 1 t) (iblk m c 2 t) (vOf m c b) j
      = GK (aX m c) (aKV m c) (aWQ m c) (aWK m c) (aWV m c) (((cfg0.win 4).blk t).view.emb j) := by
  have hN : cfg0.N = 32 := N_0
  have ht : t.val < 32 := lt_of_lt_of_eq t.isLt hN
  obtain ⟨u, q, e, rfl⟩ : ∃ (u : Fin 1) (q : Fin 2048) (e : Fin 64), j = ix3 u q e := ⟨j 0, j 1, j 2, eq_ix3 j⟩
  obtain rfl : u = 0 := Fin.ext (by omega)
  have hQ : (t.val % 4) * 2048 + q.val < 8192 := by have := q.isLt; omega
  have hemb : ((cfg0.win 4).blk t).view.emb (ix3 (0 : Fin 1) q e) = ix3 b ⟨(t.val % 4) * 2048 + q.val, hQ⟩ e := by
    obtain ⟨e0, e1, e2⟩ := idx_facts4 t
    funext a
    apply Fin.ext
    match a with
    | ⟨0, _⟩ => show win0_4.index t (0 : Fin 3) * 1 + 1 * 0 = b.val; omega
    | ⟨1, _⟩ => show win0_4.index t (1 : Fin 3) * 2048 + 1 * q.val = (t.val % 4) * 2048 + q.val; omega
    | ⟨2, _⟩ => show win0_4.index t (2 : Fin 3) * 64 + 1 * e.val = e.val; omega
  rw [hemb]
  exact pay2_is_GK (iblk m c 0 t) (iblk m c 1 t) (iblk m c 2 t) (vOf m c b) (aX m c) (aKV m c) (aWQ m c) (aWK m c) (aWV m c)
    b q ⟨(t.val % 4) * 2048 + q.val, hQ⟩ e
    (fun d => iblk0_apply m c t q d b ⟨(t.val % 4) * 2048 + q.val, hQ⟩ hb rfl)
    (fun k d => iblk1_apply m c t k d b hb)
    (fun d e' => (iblk2_apply m c t d e').trans (by rw [V_main_v0]; exact hostWqk_apply _ _ d e'))
    (fun k => rfl)

/-- WHAT POINT t WRITES BACK is block t of the specification of the argument arrays. -/
theorem flushed_eq (c : Dev nD) (t : Fin cfg0.N) (hf : (cfg0.win 4).flush t = true) :
    (dats m 0 c).flushed 4 t
      = ((cfg0.win 4).blk t).view.read (Elt Ideal) (GK (aX m c) (aKV m c) (aWQ m c) (aWK m c) (aWV m c)) := by
  have hN : cfg0.N = 32 := N_0
  have hb : t.val / 4 < 8 := by have := lt_of_lt_of_eq t.isLt hN; omega
  rw [Value.flushed4, out_eq m c t ⟨t.val / 4, hb⟩ rfl]
  funext j
  exact block_eq m c t ⟨t.val / 4, hb⟩ rfl j

/-- THE RESULT ARRAY after the run: the specification (kernel grouping) of the argument arrays. -/
theorem final (c : Dev nD) :
    (dats m 0 c).arrAt 4 cfg0.N = GK (aX m c) (aKV m c) (aWQ m c) (aWK m c) (aWV m c) :=
  (dats m 0 c).arrAt_eq_of_cover 4 (GK (aX m c) (aKV m c) (aWQ m c) (aWK m c) (aWV m c)) (flushed_eq m c) cover4

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v1) = GK (aX m c) (aKV m c) (aWQ m c) (aWK m c) (aWV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.AttnValue

end
-- ==== Proof.RefValue.lean ====
/- The reference program's result, read at an index over the extended reals, is the specification `G`.
   Each stage is read at an index given by its coordinates (b, q, k) or (b, q):
   the three projections are `proj`, the scores are `scoreR`, the row maximum is the fold of max over the keys from
   the word of -∞ (`rowMax`), the extra maximum with that same word changes nothing because the fold starts from it,
   the row sum starts from the word of 0, which is 0, and the last contraction over the keys is `rowOut`. -/
import proofs.«113969_j62139586839038_2_alg».proof.Proof.Gen.ReferenceIdeal.Read
import proofs.«113969_j62139586839038_2_alg».proof.Proof.AttnSpec
import Idealize.ShloMosaic.PureOps.Ideal.Laws
import Idealize.ShloMosaic.Lib.ValueIdx

noncomputable section

open scoped BigOperators

namespace Cert.Attn

namespace RefValue

open Idealize.ShloMosaic Idealize.ShloMosaic.ValueIdx Cert.ReferenceIdeal Cert.ReferenceIdeal.Gen Cert.ReferenceIdeal.Read

variable (x0 : (⟨S8x8192x64, .f32⟩ : BufTy).Contents (Elt Ideal)) (x1 : (⟨S8x1024x64, .f32⟩ : BufTy).Contents (Elt Ideal))
  (x2 x3 x4 : (⟨S64x64, .f32⟩ : BufTy).Contents (Elt Ideal))

/-- q = x·Wq at (b, r, f). -/
theorem v0_at (b : Fin 8) (r : Fin 8192) (f : Fin 64) :
    val_main_v0 (F := Ideal) x0 x2 (ix3 b r f) = proj x0 x2 b r f := by
  rw [val_main_v0_apply]
  unfold proj
  refine Finset.sum_congr rfl fun d _ => ?_
  have el : lidx_main_v0 (ix3 b r f) d = ix3 b r d :=
    funext fun a => Fin.ext (by match a with | ⟨0, _⟩ => rfl | ⟨1, _⟩ => rfl | ⟨2, _⟩ => rfl)
  have er : ridx_main_v0 (ix3 b r f) d = ix2 d f :=
    funext fun a => Fin.ext (by match a with | ⟨0, _⟩ => rfl | ⟨1, _⟩ => rfl)
  rw [el, er]

/-- k = kv·Wk at (b, r, f). -/
theorem v1_at (b : Fin 8) (r : Fin 1024) (f : Fin 64) :
    val_main_v1 (F := Ideal) x1 x3 (ix3 b r f) = proj x1 x3 b r f := by
  rw [val_main_v1_apply]
  unfold proj
  refine Finset.sum_congr rfl fun d _ => ?_
  have el : lidx_main_v1 (ix3 b r f) d = ix3 b r d :=
    funext fun a => Fin.ext (by match a with | ⟨0, _⟩ => rfl | ⟨1, _⟩ => rfl | ⟨2, _⟩ => rfl)
  have er : ridx_main_v1 (ix3 b r f) d = ix2 d f :=
    funext fun a => Fin.ext (by match a with | ⟨0, _⟩ => rfl | ⟨1, _⟩ => rfl)
  rw [el, er]

/-- v = kv·Wv at (b, r, f). -/
theorem v2_at (b : Fin 8) (r : Fin 1024) (f : Fin 64) :
    val_main_v2 (F := Ideal) x1 x4 (ix3 b r f) = proj x1 x4 b r f := by
  rw [val_main_v2_apply]
  unfold proj
  refine Finset.sum_congr rfl fun d _ => ?_
  have el : lidx_main_v2 (ix3 b r f) d = ix3 b r d :=
    funext fun a => Fin.ext (by match a with | ⟨0, _⟩ => rfl | ⟨1, _⟩ => rfl | ⟨2, _⟩ => rfl)
  have er : ridx_main_v2 (ix3 b r f) d = ix2 d f :=
    funext fun a => Fin.ext (by match a with | ⟨0, _⟩ => rfl | ⟨1, _⟩ => rfl)
  rw [el, er]

/-- The scores q·kᵀ at (b, q, k). -/
theorem v3_at (b : Fin 8) (q : Fin 8192) (k : Fin 1024) :
    val_main_v3 (F := Ideal) x0 x1 x2 x3 (ix3 b q k) = scoreR x0 x1 x2 x3 b q k := by
  rw [val_main_v3_apply]
  unfold scoreR
  refine Finset.sum_congr rfl fun f _ => ?_
  have el : lidx_main_v3 (ix3 b q k) f = ix3 b q f :=
    funext fun a => Fin.ext (by match a with | ⟨0, _⟩ => rfl | ⟨1, _⟩ => rfl | ⟨2, _⟩ => rfl)
  have er : ridx_main_v3 (ix3 b q k) f = ix3 b k f :=
    funext fun a => Fin.ext (by match a with | ⟨0, _⟩ => rfl | ⟨1, _⟩ => rfl | ⟨2, _⟩ => rfl)
  rw [el, er, v0_at, v1_at]

/-- The maximum with the starting value of a fold of maxima is the fold itself. -/
theorem max_fold_max_self {ι : Type} (s : Finset ι) (c : EReal) (f : ι → EReal) :
    max c (s.fold max c f) = s.fold max c f :=
  max_eq_right ((Finset.le_fold_max c).mpr (Or.inl le_rfl))

/-- Dropping the key axis of the scores' shape leaves the (batch, query) shape. -/
theorem hRed : S8x8192x1024.Reduces [2] S8x8192 := by decide

/-- The row maximum of the scores at (b, q): the fold of max over the keys from the word of -∞. -/
theorem v4_at (b : Fin 8) (q : Fin 8192) :
    val_main_v4 (F := Ideal) x0 x1 x2 x3 (ix2 b q) = rowMax (fun k => scoreR x0 x1 x2 x3 b q k) := by
  have hy : ∀ k : Fin 1024, val_main_v3 (F := Ideal) x0 x1 x2 x3 (ix3 b q k) = scoreR x0 x1 x2 x3 b q k :=
    fun k => v3_at x0 x1 x2 x3 b q k
  unfold val_main_v4
  generalize val_main_v3 (F := Ideal) x0 x1 x2 x3 = y at hy ⊢
  have h1 := Host.reduce_eq_fold_single (FloatOps.maximumf (F := Ideal) (φ := .f32)) y (val_main_cst (F := Ideal))
    reducesTo_S8x8192x1024_S8x8192_d2 hRed h_S_ (ix2 b q)
  refine h1.trans ?_
  unfold rowMax
  have e : (y ∘ hRed.lift (ix2 b q))
      = fun k : Fin 1024 => scoreR x0 x1 x2 x3 b q k := funext fun k => by
    refine Eq.trans ?_ (hy k)
    show y _ = y _
    refine congrArg y (funext fun a => Fin.ext ?_)
    match a with | ⟨0, _⟩ => rfl | ⟨1, _⟩ => rfl | ⟨2, _⟩ => rfl
  rw [e, val_main_cst_apply, Ideal.ofBits_def]
  rfl

/-- The row maximum after the extra maximum with the broadcast word of -∞: still the row maximum, whatever that
    word denotes, because the fold already starts from it. -/
theorem v6_at (b : Fin 8) (q : Fin 8192) :
    val_main_v6 (F := Ideal) x0 x1 x2 x3 (ix2 b q) = rowMax (fun k => scoreR x0 x1 x2 x3 b q k) := by
  rw [val_main_v6_apply, val_main_v5_apply, val_main_cst_0_apply, v4_at, Ideal.ofBits_def, Ideal.maximumf_def]
  unfold rowMax
  exact max_fold_max_self _ _ _

/-- The row maximum broadcast along the keys. -/
theorem v8_at (b : Fin 8) (q : Fin 8192) (k : Fin 1024) :
    val_main_v8 (F := Ideal) x0 x1 x2 x3 (ix3 b q k) = rowMax (fun k' => scoreR x0 x1 x2 x3 b q k') := by
  rw [val_main_v8_apply, val_main_v7_apply]
  have e : idx_main_v7 (idx_main_v8 (ix3 b q k)) = ix2 b q :=
    funext fun a => Fin.ext (by match a with | ⟨0, _⟩ => rfl | ⟨1, _⟩ => rfl)
  rw [e, v6_at]

/-- exp(score − row maximum) at (b, q, k). -/
theorem v10_at (b : Fin 8) (q : Fin 8192) (k : Fin 1024) :
    val_main_v10 (F := Ideal) x0 x1 x2 x3 (ix3 b q k)
      = Ideal.exp (scoreR x0 x1 x2 x3 b q k - rowMax (fun k' => scoreR x0 x1 x2 x3 b q k')) := by
  rw [val_main_v10_apply, val_main_v9_apply, v3_at, v8_at, Ideal.subf_def, Ideal.hostUnary_exp_def]

/-- The row sum of the exponentials at (b, q): the word of 0 is 0. -/
theorem v11_at (b : Fin 8) (q : Fin 8192) :
    val_main_v11 (F := Ideal) x0 x1 x2 x3 (ix2 b q)
      = ∑ k : Fin 1024, Ideal.exp (scoreR x0 x1 x2 x3 b q k - rowMax (fun k' => scoreR x0 x1 x2 x3 b q k')) := by
  rw [val_main_v11_apply, val_main_cst_1_apply, Ideal.ofBits_def, Ideal.ofBits_zero_f32, zero_add]
  refine Finset.sum_congr rfl fun k _ => ?_
  have e : idx_main_v11 (ix2 b q) k = ix3 b q k :=
    funext fun a => Fin.ext (by match a with | ⟨0, _⟩ => rfl | ⟨1, _⟩ => rfl | ⟨2, _⟩ => rfl)
  rw [e, v10_at]

/-- The row sum broadcast along the keys. -/
theorem v13_at (b : Fin 8) (q : Fin 8192) (k : Fin 1024) :
    val_main_v13 (F := Ideal) x0 x1 x2 x3 (ix3 b q k)
      = ∑ k' : Fin 1024, Ideal.exp (scoreR x0 x1 x2 x3 b q k' - rowMax (fun k'' => scoreR x0 x1 x2 x3 b q k'')) := by
  rw [val_main_v13_apply, val_main_v12_apply]
  have e : idx_main_v12 (idx_main_v13 (ix3 b q k)) = ix2 b q :=
    funext fun a => Fin.ext (by match a with | ⟨0, _⟩ => rfl | ⟨1, _⟩ => rfl)
  rw [e, v11_at]

/-- The softmax weight at (b, q, k). -/
theorem v14_at (b : Fin 8) (q : Fin 8192) (k : Fin 1024) :
    val_main_v14 (F := Ideal) x0 x1 x2 x3 (ix3 b q k)
      = Ideal.div (Ideal.exp (scoreR x0 x1 x2 x3 b q k - rowMax (fun k' => scoreR x0 x1 x2 x3 b q k')))
          (∑ k' : Fin 1024, Ideal.exp (scoreR x0 x1 x2 x3 b q k' - rowMax (fun k'' => scoreR x0 x1 x2 x3 b q k''))) := by
  rw [val_main_v14_apply, v10_at, v13_at, Ideal.hostDivf_def]

/-- The specification at an index given by its coordinates. -/
theorem G_at (b : Fin 8) (q : Fin 8192) (e : Fin 64) :
    G x0 x1 x2 x3 x4 (ix3 b q e) = rowOut (fun k => scoreR x0 x1 x2 x3 b q k) (fun k => proj x1 x4 b k e) := rfl

end RefValue

open Idealize.ShloMosaic Idealize.ShloMosaic.ValueIdx Cert.ReferenceIdeal Cert.ReferenceIdeal.Read RefValue

/-- The reference's result is the specification. -/
theorem ref_eq_G (x0 : (⟨S8x8192x64, .f32⟩ : BufTy).Contents (Elt Ideal)) (x1 : (⟨S8x1024x64, .f32⟩ : BufTy).Contents (Elt Ideal))
    (x2 x3 x4 : (⟨S64x64, .f32⟩ : BufTy).Contents (Elt Ideal)) :
    val_main_v15 (F := Ideal) x0 x1 x2 x3 x4 = G x0 x1 x2 x3 x4 := by
  funext i
  obtain ⟨b, q, e, rfl⟩ : ∃ (b : Fin 8) (q : Fin 8192) (e : Fin 64), i = ix3 b q e := ⟨i 0, i 1, i 2, eq_ix3 i⟩
  rw [val_main_v15_apply, G_at]
  unfold rowOut
  refine Finset.sum_congr rfl fun k _ => ?_
  have el : lidx_main_v15 (ix3 b q e) k = ix3 b q k :=
    funext fun a => Fin.ext (by match a with | ⟨0, _⟩ => rfl | ⟨1, _⟩ => rfl | ⟨2, _⟩ => rfl)
  have er : ridx_main_v15 (ix3 b q e) k = ix3 b k e :=
    funext fun a => Fin.ext (by match a with | ⟨0, _⟩ => rfl | ⟨1, _⟩ => rfl | ⟨2, _⟩ => rfl)
  rw [el, er, v14_at, v2_at]

end Cert.Attn

end
-- ==== Proof.ScoreLaw.lean ====
/- The algebraic law of the attention scores: the two groupings of the triple sum
   Σ_{d,e,f} x_d · Wq_df · Wk_ef · kv_e agree when every entry is a real number. -/
import proofs.«113969_j62139586839038_2_alg».proof.Proof.AttnSpec

noncomputable section

open scoped BigOperators

namespace Cert.Attn

open Idealize.ShloMosaic Idealize.ShloMosaic.ValueIdx

/-- The inclusion of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Over the reals: Σ_e (Σ_d X_d · (Σ_f Wq_df · Wk_ef)) · KV_e = Σ_f (Σ_d X_d · Wq_df) · (Σ_e KV_e · Wk_ef).
    Both sides expand, by distributivity, to Σ_{d,e,f} X_d · Wq_df · Wk_ef · KV_e; the order of the three
    finite sums is then exchanged. -/
theorem real_score_law {ι : Type*} [Fintype ι] (X KV : ι → ℝ) (WQ WK : ι → ι → ℝ) :
    ∑ e, (∑ d, X d * ∑ f, WQ d f * WK e f) * KV e
      = ∑ f, (∑ d, X d * WQ d f) * (∑ e, KV e * WK e f) := by
  calc ∑ e, (∑ d, X d * ∑ f, WQ d f * WK e f) * KV e
      = ∑ e, ∑ d, ∑ f, X d * WQ d f * WK e f * KV e := by
        refine Finset.sum_congr rfl fun e _ => ?_
        rw [Finset.sum_mul]
        refine Finset.sum_congr rfl fun d _ => ?_
        rw [Finset.mul_sum, Finset.sum_mul]
        refine Finset.sum_congr rfl fun f _ => ?_
        ring
    _ = ∑ e, ∑ f, ∑ d, X d * WQ d f * WK e f * KV e :=
        Finset.sum_congr rfl fun e _ => Finset.sum_comm
    _ = ∑ f, ∑ e, ∑ d, X d * WQ d f * WK e f * KV e := Finset.sum_comm
    _ = ∑ f, ∑ d, ∑ e, X d * WQ d f * WK e f * KV e :=
        Finset.sum_congr rfl fun f _ => Finset.sum_comm
    _ = ∑ f, (∑ d, X d * WQ d f) * (∑ e, KV e * WK e f) := by
        refine Finset.sum_congr rfl fun f _ => ?_
        rw [Finset.sum_mul]
        refine Finset.sum_congr rfl fun d _ => ?_
        rw [Finset.mul_sum]
        refine Finset.sum_congr rfl fun e _ => ?_
        ring

/-- When x, kv, Wq and Wk hold real numbers, (x[b,q,:]·(Wq·Wkᵀ)) · kv[b,k,:] = (x[b,q,:]·Wq) · (kv[b,k,:]·Wk):
    every entry is the image of a real, the image map commutes with products and finite sums, and the
    identity holds over the reals. -/
theorem scoreK_eq_scoreR (x : SX.Idx → EReal) (kv : SKV.Idx → EReal) (wq wk : SW.Idx → EReal)
    (hx : ∀ i, ∃ r : ℝ, x i = (r : EReal)) (hkv : ∀ i, ∃ r : ℝ, kv i = (r : EReal))
    (hwq : ∀ i, ∃ r : ℝ, wq i = (r : EReal)) (hwk : ∀ i, ∃ r : ℝ, wk i = (r : EReal))
    (b : Fin 8) (q : Fin 8192) (k : Fin 1024) :
    scoreK x kv wq wk b q k = scoreR x kv wq wk b q k := by
  choose X hX using hx
  choose KV hKV using hkv
  choose WQ hWQ using hwq
  choose WK hWK using hwk
  unfold scoreK scoreR proj wqk
  simp only [hX, hKV, hWQ, hWK, ← EReal.coe_mul, ← coe_sum]
  exact congrArg (fun r : ℝ => (r : EReal))
    (real_score_law (fun d => X (ix3 b q d)) (fun e => KV (ix3 b k e))
      (fun d f => WQ (ix2 d f)) (fun e f => WK (ix2 e f)))

/-- With real entries the layer's result does not depend on the grouping of the scores: the two score
    rows agree entry by entry, hence so do their softmax-weighted sums. -/
theorem GK_eq_G (x : SX.Idx → EReal) (kv : SKV.Idx → EReal) (wq wk wv : SW.Idx → EReal)
    (hx : ∀ i, ∃ r : ℝ, x i = (r : EReal)) (hkv : ∀ i, ∃ r : ℝ, kv i = (r : EReal))
    (hwq : ∀ i, ∃ r : ℝ, wq i = (r : EReal)) (hwk : ∀ i, ∃ r : ℝ, wk i = (r : EReal)) :
    GK x kv wq wk wv = G x kv wq wk wv := by
  funext i
  have h : (fun k => scoreK x kv wq wk (i 0) (i 1) k) = (fun k => scoreR x kv wq wk (i 0) (i 1) k) :=
    funext fun k => scoreK_eq_scoreR x kv wq wk hx hkv hwq hwk (i 0) (i 1) k
  unfold GK G
  rw [h]

end Cert.Attn

end
-- ==== Proof.Finite.lean ====
/- From the precondition "every float input is finite" to "every entry of each of the five arrays is a real number".
   The precondition is, per array, the conjunction over all entries of |a| < +∞, and the five conjunctions joined by "and".
   At the extended reals |x| is max x (-x), which is +∞ at both infinities, so |x| < +∞ leaves only the reals. -/
import proofs.«113969_j62139586839038_2_alg».proof.Pre_finite_inputs
import proofs.«113969_j62139586839038_2_alg».proof.Proof.Gen.Pre_finite_inputs
import Idealize.ShloMosaic.PureOps.Ideal
import Idealize.ShloMosaic.Lib.ValueIdx
import Idealize.ShloMosaic.Lib.ReduceAll
import Idealize.ShloMosaic.Lib.IdealHost

namespace Cert.Attn

open Idealize.ShloMosaic Idealize.ShloMosaic.ValueIdx

/-- An extended real x with max x (-x) < +∞ is a real number: at ⊥ and at ⊤ the maximum is ⊤. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: if the conjunction over all entries of |a| < +∞ is 1, every entry of a is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf a)
            (broadcastInDim s ![] hb (constant (F := Ideal) Cert.Pre_finite_inputs.S_ .f32 0x7F800000#32)))
          init hr hu ix0 = 1#1) :
    ∀ i, ∃ r : ℝ, a i = (r : EReal) := by
  intro i
  -- the rank-0 shape has one index
  haveI : Subsingleton Cert.Pre_finite_inputs.S_.Idx := ⟨fun a b => funext fun d => d.elim0⟩
  have hi := Host.reduce_andi_all _ init hr hu ix0 e i
  refine real_of_abs_lt_inf (a i) ?_
  rw [← hi]
  show _ = Ideal.cmp .olt (max (a i) (-(a i))) (broadcastInDim s ![] hb (constant (F := Ideal) Cert.Pre_finite_inputs.S_ .f32 0x7F800000#32) i)
  rw [broadcastInDim_scalar_apply]
  rfl

theorem finite_of_pre [hP : Cert.Pre_finite_inputs.Facts]
    (a0 : FVec Ideal Cert.Pre_finite_inputs.S8x8192x64 .f32) (a1 : FVec Ideal Cert.Pre_finite_inputs.S8x1024x64 .f32)
    (a2 a3 a4 : FVec Ideal Cert.Pre_finite_inputs.S64x64 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2,
    real_of_all a3 _ _ _ _ h3, real_of_all a4 _ _ _ _ h4⟩

end Cert.Attn
-- ==== Proof.lean ====
/- The claim: a fused attention kernel against its plain reference, on the extended reals.
   Per batch b the kernel forms scores[q,k] = Σ_e (Σ_d x[b,q,d]·Wqk[d,e])·kv[b,k,e] with Wqk[d,e] = Σ_f Wq[d,f]·Wk[e,f]
   folded on the host, a softmax over k of each score row, and the product with v = kv[b]·Wv, which it computes at the
   batch's first query tile and carries in a scratch to the other three; the reference forms q = x·Wq, k = kv·Wk,
   v = kv·Wv, scores = q·kᵀ, the same softmax and the same product.  The two score matrices are one triple sum
   Σ_{d,e,f} x·Wq·Wk·kv grouped in two ways; regrouping needs distributivity, which holds on the extended reals for
   real entries: this is where the precondition (every input finite) is used.  Everything after the scores is the same
   function of them on both sides and is never opened. -/
import proofs.«113969_j62139586839038_2_alg».proof.Defs
import proofs.«113969_j62139586839038_2_alg».proof.Proof.Gen.Kernel
import proofs.«113969_j62139586839038_2_alg».proof.Proof.Gen.Kernel.Skeleton
import proofs.«113969_j62139586839038_2_alg».proof.Proof.Gen.Kernel.Launch
import proofs.«113969_j62139586839038_2_alg».proof.Proof.Gen.Kernel.Points
import proofs.«113969_j62139586839038_2_alg».proof.Proof.Gen.Kernel.Frame
import proofs.«113969_j62139586839038_2_alg».proof.Proof.Gen.KernelIdeal
import proofs.«113969_j62139586839038_2_alg».proof.Proof.Gen.KernelIdeal.Skeleton
import proofs.«113969_j62139586839038_2_alg».proof.Proof.Gen.KernelIdeal.Launch
import proofs.«113969_j62139586839038_2_alg».proof.Proof.Gen.KernelIdeal.Points
import proofs.«113969_j62139586839038_2_alg».proof.Proof.Gen.KernelIdeal.Frame
import proofs.«113969_j62139586839038_2_alg».proof.Proof.Gen.KernelIdeal.Value
import proofs.«113969_j62139586839038_2_alg».proof.Proof.Gen.ReferenceIdeal
import proofs.«113969_j62139586839038_2_alg».proof.Proof.Gen.ReferenceIdeal.Run
import proofs.«113969_j62139586839038_2_alg».proof.Proof.Gen.ReferenceIdeal.Read
import proofs.«113969_j62139586839038_2_alg».proof.Proof.Gen.Pre_finite_inputs
import proofs.«113969_j62139586839038_2_alg».proof.Proof.KBlocks
import proofs.«113969_j62139586839038_2_alg».proof.Proof.RefValue
import proofs.«113969_j62139586839038_2_alg».proof.Proof.ScoreLaw
import proofs.«113969_j62139586839038_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array is the attention layer with the scores grouped its way, the
    reference's the same layer with the scores grouped the other way; for finite inputs the two groupings agree. -/
theorem algebraic : Cert.algebraic_KernelIdeal_ReferenceIdeal := by
  intro m ρ m' ρ' hpre hagree
  refine ⟨fun c => Cert.Attn.GK (Cert.KernelIdeal.AttnValue.aX m c) (Cert.KernelIdeal.AttnValue.aKV m c)
      (Cert.KernelIdeal.AttnValue.aWQ m c) (Cert.KernelIdeal.AttnValue.aWK m c) (Cert.KernelIdeal.AttnValue.aWV m c),
    Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v15_eq, Cert.Attn.ref_eq_G]
  obtain ⟨f0, f1, f2, f3, -⟩ := Cert.Attn.finite_of_pre _ _ _ _ _ (hpre c)
  exact (Cert.Attn.GK_eq_G _ _ _ _ _ f0 f1 f2 f3).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
